-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S11008x4096 : Shape := ⟨2, ![11008, 4096]⟩
abbrev S11008 : Shape := ⟨1, ![11008]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8x2048x4096 .f32) (main_arg1 : IVec S11008x4096 32) (main_arg2 : FVec F S11008 .f32) (main_arg3 : FVec F S11008 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8x2048x4096 : Shape := ⟨3, ![8, 2048, 4096]⟩
abbrev S11008x4096 : Shape := ⟨2, ![11008, 4096]⟩
abbrev S11008 : Shape := ⟨1, ![11008]⟩
abbrev S16384x4096 : Shape := ⟨2, ![16384, 4096]⟩
abbrev S_ : Shape := ⟨0, ![]⟩
abbrev S11264x4096 : Shape := ⟨2, ![11264, 4096]⟩
abbrev S11264 : Shape := ⟨1, ![11264]⟩
abbrev S1x11264 : Shape := ⟨2, ![1, 11264]⟩
abbrev S16384x11264 : Shape := ⟨2, ![16384, 11264]⟩
abbrev S1024x1024 : Shape := ⟨2, ![1024, 1024]⟩
abbrev S1x1024 : Shape := ⟨2, ![1, 1024]⟩
abbrev S16384x11008 : Shape := ⟨2, ![16384, 11008]⟩
abbrev S8x2048x11008 : Shape := ⟨3, ![8, 2048, 11008]⟩

abbrev nBuf : Space → Nat
  | .hbm => 21
  | .vmem => 11
  | .smem => 0
  | _ => 0

abbrev bufTy : (tb : Table) → Fin (tcTables nBuf tb) → BufTy
  | .hbm, ⟨0, _⟩ => ⟨S8x2048x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S16384x4096, .f32⟩
  | .hbm, ⟨5, _⟩ => ⟨S16384x4096, .bf16⟩
  | .hbm, ⟨6, _⟩ => ⟨S11008x4096, .bf16⟩
  | .hbm, ⟨7, _⟩ => ⟨S_, .i32⟩
  | .hbm, ⟨8, _⟩ => ⟨S_, .bf16⟩
  | .hbm, ⟨9, _⟩ => ⟨S11264x4096, .bf16⟩
  | .hbm, ⟨10, _⟩ => ⟨S_, .i32⟩
  | .hbm, ⟨11, _⟩ => ⟨S_, .f32⟩
  | .hbm, ⟨12, _⟩ => ⟨S11264, .f32⟩
  | .hbm, ⟨13, _⟩ => ⟨S_, .i32⟩
  | .hbm, ⟨14, _⟩ => ⟨S_, .f32⟩
  | .hbm, ⟨15, _⟩ => ⟨S11264, .f32⟩
  | .hbm, ⟨16, _⟩ => ⟨S1x11264, .f32⟩
  | .hbm, ⟨17, _⟩ => ⟨S1x11264, .f32⟩
  | .hbm, ⟨18, _⟩ => ⟨S16384x11264, .f32⟩
  | .hbm, ⟨19, _⟩ => ⟨S16384x11008, .f32⟩
  | .hbm, ⟨20, _⟩ => ⟨S8x2048x11008, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 11, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8x2048x4096_S16384x4096 : S8x2048x4096.ShapeCasts S16384x4096
  bitsLt_bf16_f32 : FTy.bits .bf16 < FTy.bits .f32
  pads_S11008x4096_S11264x4096_02560_000 : S11008x4096.Pads (![0, 0] : Fin 2 → Nat) ![256, 0] ![0, 0] S11264x4096
  h_S_ : 0 < S_.numel
  pads_S11008_S11264_02560 : S11008.Pads (![0] : Fin 1 → Nat) ![256] ![0] S11264
  shapeCasts_S11264_S1x11264 : S11264.ShapeCasts S1x11264
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S16384x11264_S16384x11008_0_0 : S16384x11264.Slices ![0, 0] S16384x11008
  shapeCasts_S16384x11008_S8x2048x11008 : S16384x11008.ShapeCasts S8x2048x11008
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S11264x4096.size a
  hwx0_1 : ∀ i : grid0.Coords, EltTy.bits .bf16 = 32 ∨ (Rect.block (s := S11264x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x11264.size a
  hwx0_2 : ∀ i : grid0.Coords, EltTy.bits .f32 = 32 ∨ (Rect.block (s := S1x11264) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x11264.size a
  hwx0_3 : ∀ i : grid0.Coords, EltTy.bits .f32 = 32 ∨ (Rect.block (s := S1x11264) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x11264.size a
  hwx0_4 : ∀ i : grid0.Coords, EltTy.bits .f32 = 32 ∨ (Rect.block (s := S16384x11264) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S11008x4096 : Shape := ⟨2, ![11008, 4096]⟩
abbrev S11008 : Shape := ⟨1, ![11008]⟩
abbrev S11008x1 : Shape := ⟨2, ![11008, 1]⟩
abbrev S8x2048x11008 : Shape := ⟨3, ![8, 2048, 11008]⟩
abbrev S1x1x11008 : Shape := ⟨3, ![1, 1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x4096, .f32⟩
  | .hbm, ⟨5, _⟩ => ⟨S11008x1, .f32⟩
  | .hbm, ⟨6, _⟩ => ⟨S11008x4096, .f32⟩
  | .hbm, ⟨7, _⟩ => ⟨S11008x4096, .f32⟩
  | .hbm, ⟨8, _⟩ => ⟨S8x2048x11008, .f32⟩
  | .hbm, ⟨9, _⟩ => ⟨S1x1x11008, .f32⟩
  | .hbm, ⟨10, _⟩ => ⟨S8x2048x11008, .f32⟩
  | .hbm, ⟨11, _⟩ => ⟨S8x2048x11008, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S8x2048x11008_0_1_2 : S1x1x11008.BroadcastsInDim S8x2048x11008 (![0, 1, 2] : Fin 3 → Fin S8x2048x11008.rank)
  dot_S8x2048x4096_S11008x4096_S8x2048x11008_2_1_01_0_n_n_wf : DotDims.WF S8x2048x4096 S11008x4096 S8x2048x11008 [2] [1] [0, 1] [0] [] []

variable [Facts₀]

def dot_S8x2048x4096_S11008x4096_S8x2048x11008_2_1_01_0_n_n : DotDims S8x2048x4096 S11008x4096 S8x2048x11008 where
  lhsContracting := [2]
  rhsContracting := [1]
  lhsNonContracting := [0, 1]
  rhsNonContracting := [0]
  lhsBatch := []
  rhsBatch := []
  wf := dot_S8x2048x4096_S11008x4096_S8x2048x11008_2_1_01_0_n_n_wf

class Facts : Prop extends Facts₀ where

variable [Facts]
-- ==== Proof.LibWholeRect.lean ====
/-
  Whole-buffer rectangles.

  A kernel body that loads or stores a whole buffer does it through the rectangle at offset zero whose extents are the
  buffer's own. Every index of the shape lies in that rectangle; one store through it leaves exactly its payload, whatever
  the buffer held before; and a whole memref read through it gives back its contents.
-/
import Idealize.ShloMosaic.Lib.Pipeline.Frame
import Idealize.ShloMosaic.Lib.Pipeline.FrameBody
import Idealize.ShloMosaic.Lib.Pipeline.Value

noncomputable section

namespace Cert.Lib

open Idealize.ShloMosaic

variable {sig : RefSig} {Val : EltTy → Type}

/-- The printed zero offsets of ranks two and three are the zero function. -/
theorem off2_zero : (![0, 0] : Fin 2 → ℕ) = fun _ => 0 := by funext a; fin_cases a <;> rfl
theorem off3_zero : (![0, 0, 0] : Fin 3 → ℕ) = fun _ => 0 := by funext a; fin_cases a <;> rfl

/-- Every index of a shape lies in the rectangle at offset zero of the shape's own extents. -/
theorem mem_unit_zero {S : Shape} {off : Fin S.rank → ℕ} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- One store through that rectangle leaves its payload, whatever the buffer held. -/
theorem read_write_whole [∀ e, Nonempty (Val e)] {κ : Kind} {sp : Space} {S : Shape} {e : EltTy} (v : View sig κ sp S e)
    (f : v.ty.Contents Val) {off : Fin S.rank → ℕ} (h : off = fun _ => 0) (inb : ∀ a, off a + S.size a ≤ S.size a)
    (w : S.Idx → Val e) :
    v.read Val (v.writes Val f [(⟨Rect.unit off S.size inb, w⟩ : View.Piece Val S e)]) = w := by
  rw [View.read_writes_eq_canon _ _ _ (fun y => ⟨_, List.mem_singleton_self _, mem_unit_zero h inb y⟩), View.canon_unit_zero h]

/-- A whole memref read through that rectangle is its contents. -/
theorem readAt_whole {κ : Kind} {sp : Space} {S : Shape} {e : EltTy} (M : Memref sig κ sp S e) (hM : M.IsWhole)
    {off : Fin S.rank → ℕ} (h : off = fun _ => 0) (inb : ∀ a, off a + S.size a ≤ S.size a) (x : S.Idx → Val e) :
    View.readAt Val M.view (Rect.unit off S.size inb).toLoadRect (hM.unread x) = x := by
  rw [View.readAt_eq_ld, hM.read_unread, View.ld_unit_zero h]

end Cert.Lib

end
-- ==== Proof.Pieces.lean ====
/-
  What each control case of the kernel body leaves behind, as values.

  The body keeps a running 1024 × 1024 tile in a scratch buffer across the four steps of the contraction axis.
  * At the first step it stores the zero tile, reads it back, and stores the accumulation over it.
  * At a middle step it stores the accumulation over what the step before left.
  * At the last step it does the same, then reads the running tile back and stores the finished tile (scaled and
    shifted) into the output's buffer.
  Every load and store goes through the whole buffer, so what a buffer holds after a case is the payload of the last store
  into it, its loads replaced by the buffers' contents.
-/
import proofs.«136499_j17377437680105_2_alg».proof.Proof.Gen.KernelIdeal.Frame
import Idealize.ShloMosaic.Lib.Pipeline.Value
import Idealize.ShloMosaic.Lib.Tactic
import proofs.«136499_j17377437680105_2_alg».proof.Proof.LibWholeRect

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]
variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1024x1024 .f32) (harg7 : arg7.IsWhole)
  (arg8 : Memref sig .tc .vmem S1024x1024 .f32) (harg8 : arg8.IsWhole)
  (x0 x1 : Vec F S1024x1024 .bf16) (x2 x3 : Vec F S1x1024 .f32) (xs0 : Vec F S1024x1024 .f32)

/-- A middle step leaves, in the running tile, the accumulation over what it found there. -/
theorem running_middle (hc0 : ¬cond0_0 i) (hc1 : ¬cond0_1 i) :
    sout0_B_0 c i arg3 harg3 arg4 harg4 arg5 harg5 arg6 harg6 arg7 harg7 arg8 harg8 hc0 hc1 x0 x1 x2 x3 xs0
      = k0_pay2 xs0 x0 x1 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero Cert.Lib.off2_zero]
  simp only [View.readAt_eq_ld, harg3.read_unread, harg4.read_unread, harg8.read_unread,
    View.ld_unit_zero (S := S1024x1024) Cert.Lib.off2_zero]

/-- The last step leaves the same in the running tile, -/
theorem running_last (hc0 : ¬cond0_0 i) (hc1 : cond0_1 i) :
    sout0_C_0 c i arg3 harg3 arg4 harg4 arg5 harg5 arg6 harg6 arg7 harg7 arg8 harg8 hc0 hc1 x0 x1 x2 x3 xs0
      = k0_pay2 xs0 x0 x1 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero Cert.Lib.off2_zero]
  simp only [View.readAt_eq_ld, harg3.read_unread, harg4.read_unread, harg8.read_unread,
    View.ld_unit_zero (S := S1024x1024) Cert.Lib.off2_zero]

/-- and in the output's buffer the finish of that tile by the step's scale and bias rows. -/
theorem output_last (hc0 : ¬cond0_0 i) (hc1 : cond0_1 i) :
    out0_C_4 c i arg3 harg3 arg4 harg4 arg5 harg5 arg6 harg6 arg7 harg7 arg8 harg8 hc0 hc1 x0 x1 x2 x3 xs0
      = k0_pay3 (k0_pay2 xs0 x0 x1) x2 x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero Cert.Lib.off2_zero]
  simp only [View.readAt_eq_ld, harg3.read_unread, harg4.read_unread, harg5.read_unread, harg6.read_unread, harg8.read_unread,
    View.ld_unit_zero (S := S1024x1024) Cert.Lib.off2_zero, View.ld_unit_zero (S := S1x1024) Cert.Lib.off2_zero,
    View.readCov_unit_zero (S := S1024x1024) _ Cert.Lib.off2_zero]

/-- The first step leaves, in the running tile, the accumulation over the zero tile. -/
theorem running_first (hc0 : cond0_0 i) (hc1 : ¬cond0_1 i) :
    sout0_A_0 c i arg3 harg3 arg4 harg4 arg5 harg5 arg6 harg6 arg7 harg7 arg8 harg8 hc0 hc1 x0 x1 x2 x3
      = k0_pay2 (k0_pay1 (F := F)) x0 x1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) Cert.Lib.off2_zero]
  simp only [View.readAt_eq_ld, harg3.read_unread, harg4.read_unread,
    View.ld_unit_zero (S := S1024x1024) Cert.Lib.off2_zero, View.readCov_unit_zero (S := S1024x1024) _ Cert.Lib.off2_zero]

end Cert.KernelIdeal.Body

end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.Payload.lean ====
/-
  What the kernel body stores, read at one entry of a 1024 × 1024 tile.

  The body has three stores. The reset stores the zero tile. The accumulation stores, at (p, q), the running value's
  entry plus the product of row p of the activation tile with row q of the weight tile (a contraction over the tiles'
  1024 shared columns, into a zero accumulator). The finish stores, at (p, q), the running value's entry times column
  q's scale plus column q's bias, the scale and bias arriving as one-row arrays repeated over the tile's rows.
-/
import proofs.«136499_j17377437680105_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«136499_j17377437680105_2_alg».proof.Proof.LibRowsDot

noncomputable section

namespace Cert.KernelIdeal.Body

open Cert.KernelIdeal Cert.KernelIdeal.Gen Idealize.ShloMosaic Idealize.ShloMosaic.ValueIdx
open scoped BigOperators

/-- The reset's tile is zero at every entry. -/
theorem reset_apply (p q : Fin 1024) : k0_pay1 (F := Ideal) (ix2 p q) = 0 := by
  unfold k0_pay1
  simp only [shapeCast_self]
  exact Ideal.ofBits_zero_f32

/-- The accumulation's tile at (p, q): the running value there plus row p of the activations against row q of the
    weights. -/
theorem accumulate_apply (acc : Vec Ideal S1024x1024 .f32) (xt wt : Vec Ideal S1024x1024 .bf16) (p q : Fin 1024) :
    k0_pay2 acc xt wt (ix2 p q) = acc (ix2 p q) + ∑ k : Fin 1024, xt (ix2 p k) * wt (ix2 q k) := by
  unfold k0_pay2
  simp only [shapeCast_self]
  exact congrArg (fun z => acc (ix2 p q) + z)
    (Cert.Lib.matmul_rows_zero_apply (a := 1024) (K := 1024) (b := 1024)
      Facts₀.dot_S1024x1024_S1024x1024_S1024x1024_1_1_0_0_n_n_wf none xt wt p q)

/-- The finish's tile at (p, q): the running value there times column q's scale plus column q's bias. -/
theorem finish_apply (acc : Vec Ideal S1024x1024 .f32) (sc bi : Vec Ideal S1x1024 .f32) (p q : Fin 1024) :
    k0_pay3 acc sc bi (ix2 p q) = acc (ix2 p q) * sc (ix2 (0 : Fin 1) q) + bi (ix2 (0 : Fin 1) q) := by
  unfold k0_pay3
  simp only [shapeCast_self]
  exact congrArg₂ (fun a b => acc (ix2 p q) * a + b)
    (broadcastTo_1b_ab_apply (a := 1024) (b := 1024) sc _ p q) (broadcastTo_1b_ab_apply (a := 1024) (b := 1024) bi _ p q)

end Cert.KernelIdeal.Body

end
-- ==== Proof.Steps.lean ====
/-
  The running tile over one group of four steps, entry by entry.

  The grid's points come in groups of four consecutive positions, one group per output tile, the position within the
  group being the step along the contraction axis. At the group's first point the running tile becomes zero plus that
  step's product of tiles; at each later point it takes in that step's product; and at the group's last point the
  output's buffer receives the running tile scaled and shifted by the step's scale and bias rows. So at the last point
  of a group the output's buffer holds, at (p, q),
      ((((0 + D₀) + D₁) + D₂) + D₃) · scale(q) + bias(q),
  with Dₛ the contraction of row p of step s's activation tile with row q of its weight tile.
-/
import proofs.«136499_j17377437680105_2_alg».proof.Proof.Gen.KernelIdeal.Frame
import proofs.«136499_j17377437680105_2_alg».proof.Proof.Pieces
import proofs.«136499_j17377437680105_2_alg».proof.Proof.Payload

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (c : Dev nD)

/-- The four input tiles of a point, typed as the arrays they are. -/
abbrev xTile (t : Fin cfg0.N) : Vec Ideal S1024x1024 .bf16 := iblk m c 0 t
abbrev wTile (t : Fin cfg0.N) : Vec Ideal S1024x1024 .bf16 := iblk m c 1 t
abbrev scaleRow (t : Fin cfg0.N) : Vec Ideal S1x1024 .f32 := iblk m c 2 t
abbrev biasRow (t : Fin cfg0.N) : Vec Ideal S1x1024 .f32 := iblk m c 3 t

/-- Point `t`'s product of tiles at (p, q): row p of its activation tile against row q of its weight tile. -/
def tileDot (t : Fin cfg0.N) (p q : Fin 1024) : EReal :=
  ∑ k : Fin 1024, xTile m c t (ix2 p k) * wTile m c t (ix2 q k)

/-- The point before `t` (used only where `t` is not a group's first point). -/
abbrev prev (t : Fin cfg0.N) : Fin cfg0.N := ⟨t.val - 1, Nat.lt_of_le_of_lt (Nat.sub_le _ _) t.isLt⟩

/-- At a group's first point the running tile is zero plus the point's product. -/
theorem running_at_first (t : Fin cfg0.N) (h : t.val % 4 = 0) (p q : Fin 1024) :
    (outsAt0 m c t.val t.isLt).2 (ix2 p q) = 0 + tileDot m c t p q := by
  have h1 : ¬t.val % 4 = 3 := by omega
  rw [outsAt0_A m c t h h1]
  dsimp only
  refine (congrFun (running_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)
    ((hcond0_0 t).mpr h) (fun h' => h1 ((hcond0_1 t).mp h'))) (ix2 p q)).trans ?_
  refine (accumulate_apply _ _ _ p q).trans ?_
  exact congrArg (fun z => z + tileDot m c t p q) (reset_apply p q)

/-- At any later point of a group the running tile is what the point before left plus the point's product. -/
theorem running_at_later (t : Fin cfg0.N) (h : ¬t.val % 4 = 0) (p q : Fin 1024) :
    (outsAt0 m c t.val t.isLt).2 (ix2 p q)
      = (outsAt0 m c (prev t).val (prev t).isLt).2 (ix2 p q) + tileDot m c t p q := by
  by_cases h1 : t.val % 4 = 3
  · rw [outsAt0_C m c t h h1]
    dsimp only
    exact (congrFun (running_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)
      ((outsAt0 m c (prev t).val (prev t).isLt).2) (fun h' => h ((hcond0_0 t).mp h')) ((hcond0_1 t).mpr h1)) (ix2 p q)).trans
        (accumulate_apply _ _ _ p q)
  · rw [outsAt0_B m c t h h1]
    dsimp only
    exact (congrFun (running_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)
      ((outsAt0 m c (prev t).val (prev t).isLt).2) (fun h' => h ((hcond0_0 t).mp h')) (fun h' => h1 ((hcond0_1 t).mp h'))) (ix2 p q)).trans
        (accumulate_apply _ _ _ p q)

/-- At a group's last point the output's buffer holds the running tile scaled and shifted. -/
theorem output_at_last (t : Fin cfg0.N) (h : t.val % 4 = 3) (p q : Fin 1024) :
    (outsAt0 m c t.val t.isLt).1 (ix2 p q)
      = (outsAt0 m c t.val t.isLt).2 (ix2 p q) * scaleRow m c t (ix2 (0 : Fin 1) q) + biasRow m c t (ix2 (0 : Fin 1) q) := by
  have h0 : ¬t.val % 4 = 0 := by omega
  rw [outsAt0_C m c t h0 h]
  dsimp only
  refine (congrFun (output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)
    ((outsAt0 m c (prev t).val (prev t).isLt).2) (fun h' => h0 ((hcond0_0 t).mp h')) ((hcond0_1 t).mpr h)) (ix2 p q)).trans ?_
  refine (finish_apply _ _ _ p q).trans ?_
  exact congrArg (fun z => z * scaleRow m c t (ix2 (0 : Fin 1) q) + biasRow m c t (ix2 (0 : Fin 1) q))
    (congrFun (running_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)
      ((outsAt0 m c (prev t).val (prev t).isLt).2) (fun h' => h0 ((hcond0_0 t).mp h')) ((hcond0_1 t).mpr h)) (ix2 p q)).symm

/-- So at a group's last point the output's buffer holds the four products added in order from zero, scaled and shifted. -/
theorem output_group (t : Fin cfg0.N) (h : t.val % 4 = 3) (p q : Fin 1024) :
    (outsAt0 m c t.val t.isLt).1 (ix2 p q)
      = ((((0 + tileDot m c (prev (prev (prev t))) p q) + tileDot m c (prev (prev t)) p q) + tileDot m c (prev t) p q)
          + tileDot m c t p q) * scaleRow m c t (ix2 (0 : Fin 1) q) + biasRow m c t (ix2 (0 : Fin 1) q) := by
  have e0 : (prev t).val = t.val - 1 := rfl
  have e1 : (prev (prev t)).val = t.val - 1 - 1 := rfl
  have e2 : (prev (prev (prev t))).val = t.val - 1 - 1 - 1 := rfl
  rw [output_at_last m c t h p q, running_at_later m c t (by omega) p q,
    running_at_later m c (prev t) (by rw [e0]; omega) p q,
    running_at_later m c (prev (prev t)) (by rw [e1]; omega) p q,
    running_at_first m c (prev (prev (prev t))) (by rw [e2]; omega) p q]

end Cert.KernelIdeal.Body

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.LibAggLinear.lean ====
/-
  A weighted neighbourhood sum commutes with a matrix product, on the extended reals, for REAL data.

  Over a set `A` of edges, each edge `e` taking the row `row e` of a matrix `X` with weight `n e`:
      ∑ k, (∑ e ∈ A, X (row e) k · n e) · W k  =  ∑ e ∈ A, (∑ k, X (row e) k · W k) · n e .
  Aggregating rows and then multiplying by a column of weights `W` is multiplying first and aggregating afterwards: both
  are the double sum of `X (row e) k · n e · W k`. The law needs every entry to be a real number: with infinite entries
  a product does not distribute over a sum on the extended reals.
-/
import Mathlib.Data.EReal.Basic
import Mathlib.Algebra.BigOperators.Ring.Finset
import Mathlib.Algebra.BigOperators.Group.Finset.Sigma
import Mathlib.Tactic.Ring

noncomputable section

namespace Cert.Lib

open scoped BigOperators

/-- The coercion of the reals into the extended reals carries a finite sum to the sum of the coercions. -/
theorem ereal_coe_sum {α : Type*} (s : Finset α) (f : α → ℝ) : ((∑ a ∈ s, f a : ℝ) : EReal) = ∑ a ∈ s, (f a : EReal) := by
  induction s using Finset.cons_induction with
  | empty => simp
  | cons a s ha ih => rw [Finset.sum_cons, Finset.sum_cons, EReal.coe_add, ih]

/-- A finite sum of real entries is a real. -/
theorem real_sum {α : Type*} (s : Finset α) (f : α → EReal) (hf : ∀ a, ∃ r : ℝ, f a = (r : EReal)) :
    ∃ r : ℝ, ∑ a ∈ s, f a = (r : EReal) := by
  choose g hg using hf
  exact ⟨∑ a ∈ s, g a, by rw [ereal_coe_sum]; exact Finset.sum_congr rfl fun a _ => hg a⟩

/-- Aggregate-then-multiply is multiply-then-aggregate, for real entries. -/
theorem sum_agg_mul {ν ε κ : Type*} [Fintype κ] (A : Finset ε) (row : ε → ν) (X : ν → κ → EReal) (W : κ → EReal)
    (n : ε → EReal) (hX : ∀ v k, ∃ r : ℝ, X v k = (r : EReal)) (hW : ∀ k, ∃ r : ℝ, W k = (r : EReal))
    (hn : ∀ e, ∃ r : ℝ, n e = (r : EReal)) :
    ∑ k, (∑ e ∈ A, X (row e) k * n e) * W k = ∑ e ∈ A, (∑ k, X (row e) k * W k) * n e := by
  choose x hx using hX
  choose w hw using hW
  choose nn hnn using hn
  have hl : ∀ k, (∑ e ∈ A, X (row e) k * n e) * W k = ((∑ e ∈ A, x (row e) k * nn e) * w k : ℝ) := fun k => by
    rw [EReal.coe_mul, ereal_coe_sum, hw]
    refine congrArg (· * (w k : EReal)) (Finset.sum_congr rfl fun e _ => ?_)
    rw [hx, hnn, EReal.coe_mul]
  have hr : ∀ e, (∑ k, X (row e) k * W k) * n e = ((∑ k, x (row e) k * w k) * nn e : ℝ) := fun e => by
    rw [EReal.coe_mul, ereal_coe_sum, hnn]
    refine congrArg (· * (nn e : EReal)) (Finset.sum_congr rfl fun k _ => ?_)
    rw [hx, hw, EReal.coe_mul]
  rw [Finset.sum_congr rfl fun k _ => hl k, Finset.sum_congr rfl fun e _ => hr e, ← ereal_coe_sum, ← ereal_coe_sum]
  refine congrArg _ ?_
  simp only [Finset.sum_mul]
  rw [Finset.sum_comm]
  refine Finset.sum_congr rfl fun e _ => Finset.sum_congr rfl fun k _ => ?_
  ring

end Cert.Lib

end
-- ==== Proof.LibScaleOut.lean ====
/-
  A common real factor taken out of a contraction, on the extended reals.

  For real xₖ, wₖ and a real s,
      ∑ₖ xₖ · (wₖ · s) = (∑ₖ xₖ · wₖ) · s .
  Scaling every weight before contracting is scaling the contraction: the two arrangements of a per-channel dequantised
  linear layer. On the extended reals a product does not distribute over a sum at the infinities (⊤ + ⊥ is ⊥, while
  ⊤ · s + ⊥ · s depends on the sign of s), so the law is stated for entries that are coercions of reals; it holds over
  any finite index type.
-/
import Mathlib.Data.EReal.Basic
import Mathlib.Algebra.BigOperators.Ring.Finset
import Mathlib.Tactic.Ring
import proofs.«136499_j17377437680105_2_alg».proof.Proof.LibAggLinear

noncomputable section

namespace Cert.Lib

open scoped BigOperators

/-- For real `x`, `w` and `s`: ∑ₖ xₖ · (wₖ · s) = (∑ₖ xₖ · wₖ) · s. -/
theorem scale_out {ι : Type*} [Fintype ι] (x w : ι → EReal) (s : EReal) (hx : ∀ k, ∃ r : ℝ, x k = (r : EReal))
    (hw : ∀ k, ∃ r : ℝ, w k = (r : EReal)) (hs : ∃ r : ℝ, s = (r : EReal)) :
    ∑ k, x k * (w k * s) = (∑ k, x k * w k) * s := by
  choose xr hxr using hx
  choose wr hwr using hw
  obtain ⟨sr, rfl⟩ := hs
  have hl : ∀ k, x k * (w k * (sr : EReal)) = ((xr k * (wr k * sr) : ℝ) : EReal) := fun k => by
    rw [hxr, hwr, EReal.coe_mul, EReal.coe_mul]
  have hr : ∀ k, x k * w k = ((xr k * wr k : ℝ) : EReal) := fun k => by rw [hxr, hwr, EReal.coe_mul]
  rw [Finset.sum_congr rfl fun k _ => hl k, Finset.sum_congr rfl fun k _ => hr k, ← Cert.Lib.ereal_coe_sum,
    ← Cert.Lib.ereal_coe_sum, ← EReal.coe_mul]
  refine congrArg _ ?_
  rw [Finset.sum_mul]
  exact Finset.sum_congr rfl fun k _ => by ring

end Cert.Lib

end
-- ==== Proof.Spec.lean ====
/-
  The quantised linear layer, as one function of its four arguments, and the two laws that join its two arrangements.

  For activations `x` of shape [8, 2048, 4096], integer weights `q` of shape [11008, 4096], and per-channel scale and
  bias vectors of length 11008, the layer's output at (b, s, o) is
      (∑ₖ x(b, s, k) · q(o, k)) · scale(o) + bias(o),
  the integer weight read as the real number it denotes.

  * Tiling the contraction: a running value that starts at zero and takes in four consecutive tiles of 1024 terms is the
    sum of all 4096 terms. Only commutativity and associativity of `+` are used, so this holds on the extended reals
    with no finiteness hypothesis.
  * Scaling the weights first: ∑ₖ xₖ · (wₖ · s) = (∑ₖ xₖ · wₖ) · s for real `x`, `w` and `s` is the general law
    `Cert.Lib.scale_out`, in a module of its own.
-/
import Idealize.ShloMosaic.PureOps.Ideal.Laws
import Idealize.ShloMosaic.Lib.ValueIdx
import proofs.«136499_j17377437680105_2_alg».proof.Proof.LibBlockSum
import proofs.«136499_j17377437680105_2_alg».proof.Proof.LibScaleOut

noncomputable section

namespace Cert.QLinear

open Idealize.ShloMosaic Idealize.ShloMosaic.ValueIdx
open scoped BigOperators

/-- The integer a weight word denotes, as an extended real. -/
abbrev wt (b : BitVec 32) : EReal := ((b.toInt : ℝ) : EReal)

/-- The layer's output at (b, s, o): the row of activations against the row of integer weights, scaled and shifted by
    channel `o`'s scale and bias. -/
def layer (x : (⟨3, ![8, 2048, 4096]⟩ : Shape).Idx → EReal) (q : (⟨2, ![11008, 4096]⟩ : Shape).Idx → BitVec 32)
    (s b : (⟨1, ![11008]⟩ : Shape).Idx → EReal) : (⟨3, ![8, 2048, 11008]⟩ : Shape).Idx → EReal :=
  fun i => (∑ k : Fin 4096, x (ix3 (i 0) (i 1) k) * wt (q (ix2 (i 2) k))) * s (ix1 (i 2)) + b (ix1 (i 2))

/-- The same product over the kernel's flattened and padded arrays: at (r, o) of [16384, 11264], row r of the flattened
    activations against row o of the padded weights, scaled and shifted by entry o of the padded scale and bias rows. -/
def padded (X : (⟨2, ![16384, 4096]⟩ : Shape).Idx → EReal) (W : (⟨2, ![11264, 4096]⟩ : Shape).Idx → EReal)
    (S B : (⟨2, ![1, 11264]⟩ : Shape).Idx → EReal) : (⟨2, ![16384, 11264]⟩ : Shape).Idx → EReal :=
  fun i => (∑ k : Fin 4096, X (ix2 (i 0) k) * W (ix2 (i 1) k)) * S (ix2 (0 : Fin 1) (i 1)) + B (ix2 (0 : Fin 1) (i 1))

/-- Position `k` of tile `d` among 4096 positions cut into four tiles of 1024. -/
def tilePos (d : Fin 4) (k : Fin 1024) : Fin 4096 := ⟨1024 * d.val + k.val, by have := d.isLt; have := k.isLt; omega⟩

/-- A running value that starts at zero and adds the four tiles' sums in order is the sum over all 4096 positions. -/
theorem tiles_eq_sum {M : Type*} [AddCommMonoid M] (f : Fin 4096 → M) :
    ((((0 + ∑ k : Fin 1024, f (tilePos 0 k)) + ∑ k : Fin 1024, f (tilePos 1 k)) + ∑ k : Fin 1024, f (tilePos 2 k))
      + ∑ k : Fin 1024, f (tilePos 3 k)) = ∑ k : Fin 4096, f k := by
  have h := Cert.Lib.sum_blocks 4 1024 (fun j : Fin (4 * 1024) => f ⟨j.val, j.isLt⟩)
  have e : ∀ (d : Fin 4) (k : Fin 1024),
      (⟨(finProdFinEquiv (d, k) : Fin (4 * 1024)).val, (finProdFinEquiv (d, k) : Fin (4 * 1024)).isLt⟩ : Fin 4096)
        = tilePos d k := fun d k => Fin.ext (by rw [Cert.Lib.blockIdx_val]; show k.val + 1024 * d.val = 1024 * d.val + k.val; omega)
  simp only [e] at h
  rw [show (∑ k : Fin 4096, f k) = ∑ j : Fin (4 * 1024), f ⟨j.val, j.isLt⟩ from rfl, h, Fin.sum_univ_four, zero_add]

end Cert.QLinear

end
-- ==== Proof.Blocks.lean ====
/-
  The tiles a grid point works on, located in the arrays they are cut from.

  The grid has 16 × 11 × 4 points, visited with the last axis fastest: point `t` is step `t % 4` of the contraction for the
  output tile in tile row `t / 44` and tile column `t / 4 % 11`. Its activation tile is rows 1024·(t / 44) … and
  columns 1024·(t % 4) … of the flattened activations; its weight tile is rows 1024·(t / 4 % 11) … and the same columns
  of the padded weights; its scale and bias rows are columns 1024·(t / 4 % 11) … of the padded rows.

  So the four steps of a group contract the four consecutive column tiles, and their ordered sum from zero is the whole
  contraction over the 4096 columns: at the group's last point the output's buffer holds, at (p, q), the padded layer's
  value at row 1024·(t / 44) + p and channel 1024·(t / 4 % 11) + q.
-/
import proofs.«136499_j17377437680105_2_alg».proof.Proof.Gen.KernelIdeal.Frame
import proofs.«136499_j17377437680105_2_alg».proof.Proof.Steps
import proofs.«136499_j17377437680105_2_alg».proof.Proof.Spec

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Cert.QLinear
open scoped BigOperators

variable (m : (ℓ : Loc nD τ sig) → Buf (Elt Ideal) ℓ) (c : Dev nD)

/-- The arrays the windows are cut from, as the region finds them. -/
abbrev acts : S16384x4096.Idx → EReal := V m c main_v1
abbrev weights : S11264x4096.Idx → EReal := V m c main_v3
abbrev scales : S1x11264.Idx → EReal := V m c main_v6
abbrev biases : S1x11264.Idx → EReal := V m c main_v7

/-- Where point `t`'s blocks sit: the printed index maps, decided over the grid. -/
theorem index_facts : ∀ t : Fin cfg0.N,
    win0_0.index t (0 : Fin 2) = t.val / 44 ∧ win0_0.index t (1 : Fin 2) = t.val % 4
    ∧ win0_1.index t (0 : Fin 2) = t.val / 4 % 11 ∧ win0_1.index t (1 : Fin 2) = t.val % 4
    ∧ win0_2.index t (0 : Fin 2) = 0 ∧ win0_2.index t (1 : Fin 2) = t.val / 4 % 11
    ∧ win0_3.index t (0 : Fin 2) = 0 ∧ win0_3.index t (1 : Fin 2) = t.val / 4 % 11
    ∧ win0_4.index t (0 : Fin 2) = t.val / 44 ∧ win0_4.index t (1 : Fin 2) = t.val / 4 % 11 :=
  (by decide +kernel : ∀ t : Fin grid0.N, _)

/-- Entry (p, k) of point `t`'s activation tile is the flattened activations' entry at row 1024·(t / 44) + p and column
    1024·(t % 4) + k. -/
theorem xTile_apply (t : Fin cfg0.N) (p k : Fin 1024) (j : S16384x4096.Idx)
    (h0 : (j 0).val = 1024 * (t.val / 44) + p.val) (h1 : (j 1).val = 1024 * (t.val % 4) + k.val) :
    xTile m c t (ix2 p k) = acts m c j := by
  obtain ⟨e0, e1, -⟩ := index_facts t
  show V m c main_v1 (((cfg0.win 0).blk t).view.emb (ix2 p k)) = V m c main_v1 j
  refine congrArg _ (funext fun a => Fin.ext ?_)
  match a with
  | ⟨0, _⟩ => show win0_0.index t (0 : Fin 2) * 1024 + 1 * p.val = (j 0).val; rw [e0, h0]; omega
  | ⟨1, _⟩ => show win0_0.index t (1 : Fin 2) * 1024 + 1 * k.val = (j 1).val; rw [e1, h1]; omega

/-- Entry (q, k) of its weight tile is the padded weights' entry at row 1024·(t / 4 % 11) + q and the same column. -/
theorem wTile_apply (t : Fin cfg0.N) (q k : Fin 1024) (j : S11264x4096.Idx)
    (h0 : (j 0).val = 1024 * (t.val / 4 % 11) + q.val) (h1 : (j 1).val = 1024 * (t.val % 4) + k.val) :
    wTile m c t (ix2 q k) = weights m c j := by
  obtain ⟨-, -, e0, e1, -⟩ := index_facts t
  show V m c main_v3 (((cfg0.win 1).blk t).view.emb (ix2 q k)) = V m c main_v3 j
  refine congrArg _ (funext fun a => Fin.ext ?_)
  match a with
  | ⟨0, _⟩ => show win0_1.index t (0 : Fin 2) * 1024 + 1 * q.val = (j 0).val; rw [e0, h0]; omega
  | ⟨1, _⟩ => show win0_1.index t (1 : Fin 2) * 1024 + 1 * k.val = (j 1).val; rw [e1, h1]; omega

/-- Entry q of its scale row is the padded scale row's entry 1024·(t / 4 % 11) + q, -/
theorem scaleRow_apply (t : Fin cfg0.N) (q : Fin 1024) (j : S1x11264.Idx)
    (h0 : (j 0).val = 0) (h1 : (j 1).val = 1024 * (t.val / 4 % 11) + q.val) :
    scaleRow m c t (ix2 (0 : Fin 1) q) = scales m c j := by
  obtain ⟨-, -, -, -, e0, e1, -⟩ := index_facts t
  show V m c main_v6 (((cfg0.win 2).blk t).view.emb (ix2 (0 : Fin 1) q)) = V m c main_v6 j
  refine congrArg _ (funext fun a => Fin.ext ?_)
  match a with
  | ⟨0, _⟩ => show win0_2.index t (0 : Fin 2) * 1 + 1 * 0 = (j 0).val; rw [e0, h0]
  | ⟨1, _⟩ => show win0_2.index t (1 : Fin 2) * 1024 + 1 * q.val = (j 1).val; rw [e1, h1]; omega

/-- and the same for its bias row. -/
theorem biasRow_apply (t : Fin cfg0.N) (q : Fin 1024) (j : S1x11264.Idx)
    (h0 : (j 0).val = 0) (h1 : (j 1).val = 1024 * (t.val / 4 % 11) + q.val) :
    biasRow m c t (ix2 (0 : Fin 1) q) = biases m c j := by
  obtain ⟨-, -, -, -, -, -, e0, e1, -⟩ := index_facts t
  show V m c main_v7 (((cfg0.win 3).blk t).view.emb (ix2 (0 : Fin 1) q)) = V m c main_v7 j
  refine congrArg _ (funext fun a => Fin.ext ?_)
  match a with
  | ⟨0, _⟩ => show win0_3.index t (0 : Fin 2) * 1 + 1 * 0 = (j 0).val; rw [e0, h0]
  | ⟨1, _⟩ => show win0_3.index t (1 : Fin 2) * 1024 + 1 * q.val = (j 1).val; rw [e1, h1]; omega

/-- Point `u`'s product of tiles at (p, q), for the output entry at row `r` and channel `o`, is the contraction over
    column tile `u % 4` of row `r` of the activations with row `o` of the padded weights. -/
theorem tileDot_eq (u : Fin cfg0.N) (s : Fin 4) (hs : u.val % 4 = s.val) (p q : Fin 1024) (r : Fin 16384) (o : Fin 11264)
    (hr : r.val = 1024 * (u.val / 44) + p.val) (ho : o.val = 1024 * (u.val / 4 % 11) + q.val) :
    tileDot m c u p q = ∑ k : Fin 1024, acts m c (ix2 r (tilePos s k)) * weights m c (ix2 o (tilePos s k)) := by
  unfold tileDot
  refine Finset.sum_congr rfl fun k _ => ?_
  exact congrArg₂ (· * ·)
    (xTile_apply m c u p k (ix2 r (tilePos s k)) hr (by show 1024 * s.val + k.val = _; rw [hs]))
    (wTile_apply m c u q k (ix2 o (tilePos s k)) ho (by show 1024 * s.val + k.val = _; rw [hs]))

/-- At the last point of a group the output's buffer holds, at (p, q), the padded layer's value at the entry's row and
    channel: the four steps' ordered sum from zero is the contraction over all 4096 columns. -/
theorem group_value (t : Fin cfg0.N) (h3 : t.val % 4 = 3) (p q : Fin 1024) (r : Fin 16384) (o : Fin 11264)
    (hr : r.val = 1024 * (t.val / 44) + p.val) (ho : o.val = 1024 * (t.val / 4 % 11) + q.val) :
    (outsAt0 m c t.val t.isLt).1 (ix2 p q) = padded (acts m c) (weights m c) (scales m c) (biases m c) (ix2 r o) := by
  have d1 : (t.val - 1) / 44 = t.val / 44 ∧ (t.val - 1) / 4 % 11 = t.val / 4 % 11 ∧ (t.val - 1) % 4 = 2 := by omega
  have d2 : (t.val - 1 - 1) / 44 = t.val / 44 ∧ (t.val - 1 - 1) / 4 % 11 = t.val / 4 % 11 ∧ (t.val - 1 - 1) % 4 = 1 := by omega
  have d3 : (t.val - 1 - 1 - 1) / 44 = t.val / 44 ∧ (t.val - 1 - 1 - 1) / 4 % 11 = t.val / 4 % 11
      ∧ (t.val - 1 - 1 - 1) % 4 = 0 := by omega
  rw [output_group m c t h3 p q,
    tileDot_eq m c (prev (prev (prev t))) 0 d3.2.2 p q r o
      (by show r.val = 1024 * ((t.val - 1 - 1 - 1) / 44) + p.val; rw [d3.1]; exact hr)
      (by show o.val = 1024 * ((t.val - 1 - 1 - 1) / 4 % 11) + q.val; rw [d3.2.1]; exact ho),
    tileDot_eq m c (prev (prev t)) 1 d2.2.2 p q r o
      (by show r.val = 1024 * ((t.val - 1 - 1) / 44) + p.val; rw [d2.1]; exact hr)
      (by show o.val = 1024 * ((t.val - 1 - 1) / 4 % 11) + q.val; rw [d2.2.1]; exact ho),
    tileDot_eq m c (prev t) 2 d1.2.2 p q r o
      (by show r.val = 1024 * ((t.val - 1) / 44) + p.val; rw [d1.1]; exact hr)
      (by show o.val = 1024 * ((t.val - 1) / 4 % 11) + q.val; rw [d1.2.1]; exact ho),
    tileDot_eq m c t 3 h3 p q r o hr ho,
    scaleRow_apply m c t q (ix2 (0 : Fin 1) o) rfl ho, biasRow_apply m c t q (ix2 (0 : Fin 1) o) rfl ho]
  exact congrArg (fun z => z * scales m c (ix2 (0 : Fin 1) o) + biases m c (ix2 (0 : Fin 1) o))
    (tiles_eq_sum (fun k => acts m c (ix2 r k) * weights m c (ix2 o k)))

end Cert.KernelIdeal.Body

end
-- ==== Proof.Whole.lean ====
/-
  The kernel's result array after the run: the padded layer, entry by entry.

  Only the last point of each group of four writes the output's tile back, and what it writes is the padded layer's
  values on that tile (tile row t / 44, tile column t / 4 % 11). The 16 × 11 tiles fill the [16384, 11264] array, so
  after the run the array holds the padded layer everywhere.
-/
import proofs.«136499_j17377437680105_2_alg».proof.Proof.Gen.KernelIdeal.Frame
import proofs.«136499_j17377437680105_2_alg».proof.Proof.Blocks
import Idealize.ShloMosaic.Lib.Pipeline.Value

set_option maxRecDepth 16384

noncomputable section

namespace Cert.KernelIdeal.Whole

open Cert.KernelIdeal Cert.KernelIdeal.Gen Cert.KernelIdeal.Body Idealize.ShloMosaic Idealize.ShloMosaic.TcCoe Idealize.SL.Sem
open Idealize.ShloMosaic.ValueIdx Cert.QLinear
open Idealize.ShloMosaic.Pipeline (Dat)

variable (m : (ℓ : Loc nD τ sig) → Buf (Elt Ideal) ℓ) (c : Dev nD)

/-- The padded layer over the arrays the region finds. -/
abbrev paddedOut : S16384x11264.Idx → EReal := padded (acts m c) (weights m c) (scales m c) (biases m c)

/-- What a group's last point writes back is its tile of the padded layer. -/
theorem flushed_eq (t : Fin cfg0.N) (hf : (cfg0.win 4).flush t = true) :
    (dats m 0 c).flushed 4 t = ((cfg0.win 4).blk t).view.read (Elt Ideal) (paddedOut m c) := by
  have h3 : t.val % 4 = 3 := (flush0_4 t).mp hf
  obtain ⟨-, -, -, -, -, -, -, -, e0, e1⟩ := index_facts t
  show (cfg0.win 4).cut (grid0.coords t) ((dats m 0 c).after 4 t) = _
  rw [after0_4]
  refine funext fun (y : S1024x1024.Idx) => ?_
  obtain ⟨p, q, rfl⟩ : ∃ (p q : Fin 1024), y = ix2 p q := ⟨y 0, y 1, eq_ix2 y⟩
  show (outsAt0 m c t.val t.isLt).1 (ix2 p q) = paddedOut m c (((cfg0.win 4).blk t).view.emb (ix2 p q))
  have key : ∀ j : S16384x11264.Idx, (j 0).val = 1024 * (t.val / 44) + p.val → (j 1).val = 1024 * (t.val / 4 % 11) + q.val →
      (outsAt0 m c t.val t.isLt).1 (ix2 p q) = paddedOut m c j := fun j h0 h1 =>
    (group_value m c t h3 p q (j 0) (j 1) h0 h1).trans (congrArg (paddedOut m c) (eq_ix2 j)).symm
  exact key _ (by show win0_4.index t (0 : Fin 2) * 1024 + 1 * p.val = _; rw [e0]; omega)
    (by show win0_4.index t (1 : Fin 2) * 1024 + 1 * q.val = _; rw [e1]; omega)

/-- An entry of the array lies in point `t`'s tile iff each coordinate lies in the tile's range on its axis. -/
theorem mem_blk (t : Fin cfg0.N) (i : S16384x11264.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v8).slice (win0_4.rect t)).set ↔ _
  rw [View.set_slice_whole, Rect.mem_set_unit]
  exact Iff.rfl

/-- Every entry lies in the tile some group's last point writes back: entry (r, o) in that of the group for tile row
    r / 1024 and tile column o / 1024. -/
theorem cover (i : S16384x11264.Idx) :
    ∃ t : Fin cfg0.N, (cfg0.win 4).flush t = true ∧ i ∈ ((cfg0.win 4).blk t).view.set := by
  have hi0 : (i 0).val < 16384 := (i 0).isLt
  have hi1 : (i 1).val < 11264 := (i 1).isLt
  have hN : cfg0.N = 704 := N_0
  have hb : ((i 0).val / 1024 * 11 + (i 1).val / 1024) * 4 + 3 < cfg0.N := by rw [hN]; omega
  obtain ⟨t, ht⟩ : ∃ t : Fin cfg0.N, t.val = ((i 0).val / 1024 * 11 + (i 1).val / 1024) * 4 + 3 := ⟨⟨_, hb⟩, rfl⟩
  obtain ⟨-, -, -, -, -, -, -, -, e0, e1⟩ := index_facts t
  refine ⟨t, (flush0_4 t).mpr (by rw [ht]; omega), ?_⟩
  rw [mem_blk]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 1024 ≤ (i 1).val ∧ (i 1).val < win0_4.index t (1 : Fin 2) * 1024 + 1024
    rw [e1, ht]; omega

/-- After the run the result array holds the padded layer. -/
theorem final : (dats m 0 c).arrAt 4 cfg0.N = paddedOut m c :=
  (dats m 0 c).arrAt_eq_of_cover 4 (paddedOut m c) (flushed_eq m c) (cover)

end Cert.KernelIdeal.Whole

end
-- ==== Proof.LibPadZero.lean ====
/-
  A zero-origin pad read at an index. A `stablehlo.pad` with no low padding and no interior padding keeps the operand in
  the leading corner of the result and fills the rest with the padding value: at an index inside the operand's extents on
  every axis it is the operand's entry, and at an index at or beyond the operand's extent on some axis it is the padding
  value. Stated for rank 2 and rank 1, at any extents and any high padding; the result's extents are tied to the operand's
  by the shape fact the operation carries.
-/
import Idealize.ShloMosaic.Lib.KernelVsHost

namespace Cert.Lib

open Idealize.ShloMosaic Idealize.ShloMosaic.ValueIdx

variable {α : Type}

/-- The scalar shape has one index: the first index of a rank-zero array is that index. -/
theorem first_scalar (hu : 0 < (⟨0, ![]⟩ : Shape).numel) : Shape.Idx.first hu = ix0 :=
  funext fun a => a.elim0

section Rank2
variable {a b A B h0 h1 : Nat}

/-- Rank 2, inside: at `(p, q)` with `p < a` and `q < b` the padded array is the operand's entry `(p, q)`. -/
theorem pad2_zero_apply_inside (x : (⟨2, ![a, b]⟩ : Shape).Idx → α) {u : Shape} (v : u.Idx → α)
    (hp : (⟨2, ![a, b]⟩ : Shape).Pads (![0, 0] : Fin 2 → Nat) ![h0, h1] ![0, 0] ⟨2, ![A, B]⟩) (hu : 0 < u.numel)
    (p : Fin A) (q : Fin B) (hpa : p.val < a) (hqb : q.val < b) :
    pad ⟨2, ![A, B]⟩ ![0, 0] ![h0, h1] ![0, 0] x v hp hu (ix2 p q) = x (ix2 ⟨p.val, hpa⟩ ⟨q.val, hqb⟩) :=
  pad_apply_of_inside _ _ _ x v hp hu _ (ix2 (⟨p.val, hpa⟩ : Fin a) (⟨q.val, hqb⟩ : Fin b)) (by
    intro c
    match c with
    | ⟨0, _⟩ => show p.val = 0 + p.val * (0 + 1); omega
    | ⟨1, _⟩ => show q.val = 0 + q.val * (0 + 1); omega)

/-- Rank 2, outside: at `(p, q)` with `p ≥ a` or `q ≥ b` the padded array is the padding value. -/
theorem pad2_zero_apply_outside (x : (⟨2, ![a, b]⟩ : Shape).Idx → α) {u : Shape} (v : u.Idx → α)
    (hp : (⟨2, ![a, b]⟩ : Shape).Pads (![0, 0] : Fin 2 → Nat) ![h0, h1] ![0, 0] ⟨2, ![A, B]⟩) (hu : 0 < u.numel)
    (p : Fin A) (q : Fin B) (ho : a ≤ p.val ∨ b ≤ q.val) :
    pad ⟨2, ![A, B]⟩ ![0, 0] ![h0, h1] ![0, 0] x v hp hu (ix2 p q) = v (Shape.Idx.first hu) := by
  rcases ho with ho | ho
  · exact pad_apply_of_not_inside _ _ _ x v hp hu _ (0 : Fin 2) (by
      intro hin
      have e : (p.val - 0) / (0 + 1) < a := hin.2.2
      omega)
  · exact pad_apply_of_not_inside _ _ _ x v hp hu _ (1 : Fin 2) (by
      intro hin
      have e : (q.val - 0) / (0 + 1) < b := hin.2.2
      omega)

/-- Rank 2, both cases in one: the operand's entry inside its extents, the padding value elsewhere. -/
theorem pad2_zero_apply (x : (⟨2, ![a, b]⟩ : Shape).Idx → α) {u : Shape} (v : u.Idx → α)
    (hp : (⟨2, ![a, b]⟩ : Shape).Pads (![0, 0] : Fin 2 → Nat) ![h0, h1] ![0, 0] ⟨2, ![A, B]⟩) (hu : 0 < u.numel)
    (p : Fin A) (q : Fin B) :
    pad ⟨2, ![A, B]⟩ ![0, 0] ![h0, h1] ![0, 0] x v hp hu (ix2 p q)
      = if h : p.val < a ∧ q.val < b then x (ix2 ⟨p.val, h.1⟩ ⟨q.val, h.2⟩) else v (Shape.Idx.first hu) := by
  by_cases h : p.val < a ∧ q.val < b
  · rw [dif_pos h]; exact pad2_zero_apply_inside x v hp hu p q h.1 h.2
  · rw [dif_neg h]; exact pad2_zero_apply_outside x v hp hu p q (by omega)

/-- Rank 2, outside, with a scalar padding array: the padding value is the scalar's one entry. -/
theorem pad2_zero_apply_outside_scalar (x : (⟨2, ![a, b]⟩ : Shape).Idx → α) (v : (⟨0, ![]⟩ : Shape).Idx → α)
    (hp : (⟨2, ![a, b]⟩ : Shape).Pads (![0, 0] : Fin 2 → Nat) ![h0, h1] ![0, 0] ⟨2, ![A, B]⟩)
    (hu : 0 < (⟨0, ![]⟩ : Shape).numel) (p : Fin A) (q : Fin B) (ho : a ≤ p.val ∨ b ≤ q.val) :
    pad ⟨2, ![A, B]⟩ ![0, 0] ![h0, h1] ![0, 0] x v hp hu (ix2 p q) = v ix0 := by
  rw [pad2_zero_apply_outside x v hp hu p q ho, first_scalar]

end Rank2

section Rank1
variable {a A h0 : Nat}

/-- Rank 1, inside: at `p < a` the padded vector is the operand's entry `p`. -/
theorem pad1_zero_apply_inside (x : (⟨1, ![a]⟩ : Shape).Idx → α) {u : Shape} (v : u.Idx → α)
    (hp : (⟨1, ![a]⟩ : Shape).Pads (![0] : Fin 1 → Nat) ![h0] ![0] ⟨1, ![A]⟩) (hu : 0 < u.numel)
    (p : Fin A) (hpa : p.val < a) :
    pad ⟨1, ![A]⟩ ![0] ![h0] ![0] x v hp hu (ix1 p) = x (ix1 ⟨p.val, hpa⟩) :=
  pad_apply_of_inside _ _ _ x v hp hu _ (ix1 (⟨p.val, hpa⟩ : Fin a)) (by
    intro c
    match c with
    | ⟨0, _⟩ => show p.val = 0 + p.val * (0 + 1); omega)

/-- Rank 1, outside: at `p ≥ a` the padded vector is the padding value. -/
theorem pad1_zero_apply_outside (x : (⟨1, ![a]⟩ : Shape).Idx → α) {u : Shape} (v : u.Idx → α)
    (hp : (⟨1, ![a]⟩ : Shape).Pads (![0] : Fin 1 → Nat) ![h0] ![0] ⟨1, ![A]⟩) (hu : 0 < u.numel)
    (p : Fin A) (ho : a ≤ p.val) :
    pad ⟨1, ![A]⟩ ![0] ![h0] ![0] x v hp hu (ix1 p) = v (Shape.Idx.first hu) :=
  pad_apply_of_not_inside _ _ _ x v hp hu _ (0 : Fin 1) (by
    intro hin
    have e : (p.val - 0) / (0 + 1) < a := hin.2.2
    omega)

/-- Rank 1, both cases in one: the operand's entry inside its extent, the padding value elsewhere. -/
theorem pad1_zero_apply (x : (⟨1, ![a]⟩ : Shape).Idx → α) {u : Shape} (v : u.Idx → α)
    (hp : (⟨1, ![a]⟩ : Shape).Pads (![0] : Fin 1 → Nat) ![h0] ![0] ⟨1, ![A]⟩) (hu : 0 < u.numel) (p : Fin A) :
    pad ⟨1, ![A]⟩ ![0] ![h0] ![0] x v hp hu (ix1 p)
      = if h : p.val < a then x (ix1 ⟨p.val, h⟩) else v (Shape.Idx.first hu) := by
  by_cases h : p.val < a
  · rw [dif_pos h]; exact pad1_zero_apply_inside x v hp hu p h
  · rw [dif_neg h]; exact pad1_zero_apply_outside x v hp hu p (by omega)

/-- Rank 1, outside, with a scalar padding array: the padding value is the scalar's one entry. -/
theorem pad1_zero_apply_outside_scalar (x : (⟨1, ![a]⟩ : Shape).Idx → α) (v : (⟨0, ![]⟩ : Shape).Idx → α)
    (hp : (⟨1, ![a]⟩ : Shape).Pads (![0] : Fin 1 → Nat) ![h0] ![0] ⟨1, ![A]⟩)
    (hu : 0 < (⟨0, ![]⟩ : Shape).numel) (p : Fin A) (ho : a ≤ p.val) :
    pad ⟨1, ![A]⟩ ![0] ![h0] ![0] x v hp hu (ix1 p) = v ix0 := by
  rw [pad1_zero_apply_outside x v hp hu p ho, first_scalar]

end Rank1

end Cert.Lib
-- ==== Proof.Entry.lean ====
/-
  The arrays the kernel's windows are cut from, as the host operations before the call leave them.

  * The activations [8, 2048, 4096] are flattened to [16384, 4096] (row 2048·b + s is (b, s)) and converted to a
    narrower float format, which on the extended reals changes nothing.
  * The integer weights [11008, 4096] are converted to floats — each word becomes the integer it denotes — and 256
    rows of the converted integer zero are appended below.
  * The scale and bias vectors [11008] get 256 entries of the converted integer zero appended and are laid out as one
    row [1, 11264].
  Read at an index inside the unpadded extents, each of them is the corresponding entry of the argument.
-/
import proofs.«136499_j17377437680105_2_alg».proof.Proof.Gen.KernelIdeal.Frame
import Idealize.ShloMosaic.Lib.StableHlo.Run
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
import proofs.«136499_j17377437680105_2_alg».proof.Proof.LibPadZero
import proofs.«136499_j17377437680105_2_alg».proof.Proof.Spec

set_option maxRecDepth 16384

noncomputable section

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The four arguments as launched. -/
abbrev argX : S8x2048x4096.Idx → EReal := m ((c : Thread nD τ).loc main_arg0)
abbrev argQ : S11008x4096.Idx → BitVec 32 := m ((c : Thread nD τ).loc main_arg1)
abbrev argS : S11008.Idx → EReal := m ((c : Thread nD τ).loc main_arg2)
abbrev argB : S11008.Idx → EReal := m ((c : Thread nD τ).loc main_arg3)

/-- The flattened, converted activations. -/
theorem acts_eq : (V m c main_v1 : S16384x4096.Idx → EReal)
    = truncf (F := Ideal) .bf16 (shapeCast S16384x4096 (argX m c) Facts₀.shapeCasts_S8x2048x4096_S16384x4096) Facts₀.bitsLt_bf16_f32 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The converted weights with 256 rows of the converted zero below. -/
theorem weights_eq : (V m c main_v3 : S11264x4096.Idx → EReal)
    = pad S11264x4096 ![0, 0] ![256, 0] ![0, 0] (sitofp (F := Ideal) .bf16 (argQ m c))
        (sitofp (F := Ideal) .bf16 (constantI S_ 32 0#32)) Facts₀.pads_S11008x4096_S11264x4096_02560_000 Facts₀.h_S_ := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The padded scale as one row. -/
theorem scale_eq : (V m c main_v6 : S1x11264.Idx → EReal)
    = shapeCast S1x11264 (pad S11264 ![0] ![256] ![0] (argS m c) (sitofp (F := Ideal) .f32 (constantI S_ 32 0#32))
        Facts₀.pads_S11008_S11264_02560 Facts₀.h_S_) Facts₀.shapeCasts_S11264_S1x11264 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The padded bias as one row. -/
theorem bias_eq : (V m c main_v7 : S1x11264.Idx → EReal)
    = shapeCast S1x11264 (pad S11264 ![0] ![256] ![0] (argB m c) (sitofp (F := Ideal) .f32 (constantI S_ 32 0#32))
        Facts₀.pads_S11008_S11264_02560 Facts₀.h_S_) Facts₀.shapeCasts_S11264_S1x11264 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- Row 2048·b + s of the flattened activations is row (b, s) of the argument. -/
theorem acts_apply (b : Fin 8) (s : Fin 2048) (k : Fin 4096) (r : Fin 16384) (hr : r.val = 2048 * b.val + s.val) :
    (V m c main_v1 : S16384x4096.Idx → EReal) (ix2 r k) = argX m c (ix3 b s k) := by
  rw [acts_eq]
  show shapeCast S16384x4096 (argX m c) _ (ix2 r k) = _
  refine shapeCast_apply _ _ _ _ ?_
  rw [Shape.rowMajor_val_three, Shape.rowMajor_val_two]
  show (b.val * 2048 + s.val) * 4096 + k.val = r.val * 4096 + k.val
  rw [hr]; ring

/-- Row o of the padded weights, for a channel o of the layer, is row o of the integer weights as real numbers. -/
theorem weights_apply (o : Fin 11264) (k : Fin 4096) (ho : o.val < 11008) :
    (V m c main_v3 : S11264x4096.Idx → EReal) (ix2 o k) = Cert.QLinear.wt (argQ m c (ix2 ⟨o.val, ho⟩ k)) := by
  rw [weights_eq]
  refine (Cert.Lib.pad2_zero_apply_inside (a := 11008) (b := 4096) (A := 11264) (B := 4096) _ _ _ _ o k ho k.isLt).trans ?_
  rfl

/-- Entry o of the padded scale row, for a channel o of the layer, is the scale's entry o. -/
theorem scale_apply (o : Fin 11264) (ho : o.val < 11008) :
    (V m c main_v6 : S1x11264.Idx → EReal) (ix2 (0 : Fin 1) o) = argS m c (ix1 ⟨o.val, ho⟩) := by
  rw [scale_eq]
  refine (shapeCast_a_1a_apply (a := 11264) _ _ (0 : Fin 1) o).trans ?_
  exact Cert.Lib.pad1_zero_apply_inside (a := 11008) (A := 11264) _ _ _ _ o ho

/-- Entry o of the padded bias row, for a channel o of the layer, is the bias's entry o. -/
theorem bias_apply (o : Fin 11264) (ho : o.val < 11008) :
    (V m c main_v7 : S1x11264.Idx → EReal) (ix2 (0 : Fin 1) o) = argB m c (ix1 ⟨o.val, ho⟩) := by
  rw [bias_eq]
  refine (shapeCast_a_1a_apply (a := 11264) _ _ (0 : Fin 1) o).trans ?_
  exact Cert.Lib.pad1_zero_apply_inside (a := 11008) (A := 11264) _ _ _ _ o ho

end Cert.KernelIdeal.Entry

end
-- ==== Proof.Result.lean ====
/-
  The kernel program's result, and its run.

  After the call the host keeps the first 11008 of the 11264 channels of the result array and lays its 16384 rows out as
  [8, 2048]: the result at (b, s, o) is the padded layer at row 2048·b + s and channel o. Inside the unpadded extents the
  flattened activations, the padded weights and the padded scale and bias rows are the arguments' entries, so this is
  the layer at (b, s, o).
-/
import proofs.«136499_j17377437680105_2_alg».proof.Proof.Gen.KernelIdeal.Frame
import proofs.«136499_j17377437680105_2_alg».proof.Proof.Whole
import proofs.«136499_j17377437680105_2_alg».proof.Proof.Entry
import Idealize.ShloMosaic.Lib.StableHlo.Run
import Idealize.ShloMosaic.Lib.Tactic

set_option maxRecDepth 16384

noncomputable section

namespace Cert.KernelIdeal.Result

open Cert.KernelIdeal Cert.KernelIdeal.Gen Cert.KernelIdeal.Body Cert.KernelIdeal.Whole Cert.KernelIdeal.Entry
open Idealize.ShloMosaic Idealize.ShloMosaic.TcCoe Idealize.SL.Sem Idealize.ShloMosaic.ValueIdx Cert.QLinear
open scoped BigOperators

variable (m : (ℓ : Loc nD τ sig) → Buf (Elt Ideal) ℓ) (ρ : Dev nD → PrngReg) (c : Dev nD)

/-- The padded layer cut back to the layer's channels and laid out as [8, 2048, 11008]. -/
abbrev cutBack : S8x2048x11008.Idx → EReal :=
  shapeCast S8x2048x11008 (extractStridedSlice S16384x11008 ![0, 0] (paddedOut m c)
    Facts₀.slices_S16384x11264_S16384x11008_0_0) Facts₀.shapeCasts_S16384x11008_S8x2048x11008

/-- What the host operations after the call leave in the result buffer. -/
theorem tail_eq : Pipeline.afterTail₀ cfgs (dats m) 0 (V0 m) [hostOps1] c main_v10 = cutBack m c := by
  unfold Pipeline.afterTail₀
  show StableHlo.after hostOps1 _ (Proc.devRef .tc main_v10) = _
  after_results
  exact congrArg (fun z => shapeCast S8x2048x11008 (extractStridedSlice S16384x11008 ![0, 0] z
    Facts₀.slices_S16384x11264_S16384x11008_0_0) Facts₀.shapeCasts_S16384x11008_S8x2048x11008)
    ((Pipeline.withArrays_arr spec0 launch0.win.arr_inj c (V0 m c) (fun w => (dats m 0 c).arrAt w cfg0.N) 4).trans (final m c))

/-- At (b, s, o) it is the padded layer at row 2048·b + s and channel o. -/
theorem cutBack_apply (b : Fin 8) (s : Fin 2048) (o : Fin 11008) (r : Fin 16384) (o' : Fin 11264)
    (hr : r.val = 2048 * b.val + s.val) (ho : o'.val = o.val) :
    cutBack m c (ix3 b s o) = paddedOut m c (ix2 r o') := by
  refine (shapeCast_apply _ _ (ix3 b s o) (ix2 r o) ?_).trans ?_
  · rw [Shape.rowMajor_val_three, Shape.rowMajor_val_two]
    show r.val * 11008 + o.val = (b.val * 2048 + s.val) * 11008 + o.val
    rw [hr]; ring
  · exact extractStridedSlice_apply _ _ _ (ix2 r o) (ix2 r o') (fun a => by
      match a with
      | ⟨0, _⟩ => show r.val = 0 + r.val; omega
      | ⟨1, _⟩ => show o'.val = 0 + o.val; omega)

/-- The padded layer at a row and channel inside the unpadded extents is the layer of the arguments. -/
theorem padded_apply (b : Fin 8) (s : Fin 2048) (o : Fin 11008) (r : Fin 16384) (o' : Fin 11264)
    (hr : r.val = 2048 * b.val + s.val) (ho : o'.val = o.val) :
    paddedOut m c (ix2 r o') = layer (argX m c) (argQ m c) (argS m c) (argB m c) (ix3 b s o) := by
  have ho' : o'.val < 11008 := by rw [ho]; exact o.isLt
  have eo : (⟨o'.val, ho'⟩ : Fin 11008) = o := Fin.ext ho
  have e1 : scales m c (ix2 (0 : Fin 1) o') = argS m c (ix1 o) := (scale_apply m c o' ho').trans (by rw [eo])
  have e2 : biases m c (ix2 (0 : Fin 1) o') = argB m c (ix1 o) := (bias_apply m c o' ho').trans (by rw [eo])
  have e3 : ∀ k : Fin 4096, acts m c (ix2 r k) * weights m c (ix2 o' k) = argX m c (ix3 b s k) * wt (argQ m c (ix2 o k)) :=
    fun k => congrArg₂ (· * ·) (acts_apply m c b s k r hr) ((weights_apply m c o' k ho').trans (by rw [eo]))
  show (∑ k : Fin 4096, acts m c (ix2 r k) * weights m c (ix2 o' k)) * scales m c (ix2 (0 : Fin 1) o')
      + biases m c (ix2 (0 : Fin 1) o')
    = (∑ k : Fin 4096, argX m c (ix3 b s k) * wt (argQ m c (ix2 o k))) * argS m c (ix1 o) + argB m c (ix1 o)
  rw [e1, e2, Finset.sum_congr rfl fun k _ => e3 k]

/-- The kernel program's result is the layer of its arguments. -/
theorem result_eq : Pipeline.afterTail₀ cfgs (dats m) 0 (V0 m) [hostOps1] c main_v10
    = layer (argX m c) (argQ m c) (argS m c) (argB m c) := by
  rw [tail_eq]
  funext i
  obtain ⟨b, s, o, rfl⟩ : ∃ (b : Fin 8) (s : Fin 2048) (o : Fin 11008), i = ix3 b s o := ⟨i 0, i 1, i 2, eq_ix3 i⟩
  have hb := b.isLt
  have hs := s.isLt
  have hr : 2048 * b.val + s.val < 16384 := by omega
  have ho : o.val < 11264 := lt_trans o.isLt (by decide)
  exact (cutBack_apply m c b s o ⟨_, hr⟩ ⟨_, ho⟩ rfl rfl).trans (padded_apply m c b s o ⟨_, hr⟩ ⟨_, ho⟩ rfl rfl)

/-- The kernel program's run: every weakly fair execution terminates with the result buffer at the layer of the
    arguments and the arguments unchanged. -/
theorem run : θ_run defs (onTc (τ := τ) (main (F := Ideal))) ⟨m, fun _ => 0, ρ⟩ (fun r => ∀ c : Dev nD,
      r.2.mem ((c.tc : Thread nD τ).loc main_v10) = layer (argX m c) (argQ m c) (argS m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefValue.lean ====
/-
  The reference computes the layer.

  The reference scales each integer weight by its channel's scale first, contracts the activations with the scaled
  weights, and adds the bias: at (b, s, o) it is ∑ₖ x(b, s, k) · (q(o, k) · scale(o)) + bias(o). For real activations
  and a real scale the common factor scale(o) comes out of the sum, which is the layer's value.
-/
import proofs.«136499_j17377437680105_2_alg».proof.Proof.Gen.ReferenceIdeal.Read
import proofs.«136499_j17377437680105_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.QLinear
open scoped BigOperators

/-- The contraction reads the activations at (b, s, k), -/
theorem lidx_eq (i : S8x2048x11008.Idx) (k : Fin 4096) : lidx_main_v4 i k = ix3 (i 0) (i 1) k :=
  funext fun a => Fin.ext (by match a with | ⟨0, _⟩ => rfl | ⟨1, _⟩ => rfl | ⟨2, _⟩ => rfl)

/-- the scaled weights at (o, k), -/
theorem ridx_eq (i : S8x2048x11008.Idx) (k : Fin 4096) : ridx_main_v4 i k = ix2 (i 2) k :=
  funext fun a => Fin.ext (by match a with | ⟨0, _⟩ => rfl | ⟨1, _⟩ => rfl)

/-- whose scale factor at (o, k) is the scale's entry o, -/
theorem sidx_eq (j : S11008x4096.Idx) : idx_main_v1 (idx_main_v2 j) = ix1 (j 0) :=
  funext fun a => Fin.ext (by match a with | ⟨0, _⟩ => rfl)

/-- and the bias added at (b, s, o) is the bias's entry o. -/
theorem bidx_eq (i : S8x2048x11008.Idx) : idx_main_v5 (idx_main_v6 i) = ix1 (i 2) :=
  funext fun a => Fin.ext (by match a with | ⟨0, _⟩ => rfl)

/-- For real activations and a real scale, the reference's result is the layer. -/
theorem reference_is_layer (x0 : S8x2048x4096.Idx → EReal) (x1 : S11008x4096.Idx → BitVec 32) (x2 x3 : S11008.Idx → EReal)
    (hx : ∀ i, ∃ r : ℝ, x0 i = (r : EReal)) (hs : ∀ i, ∃ r : ℝ, x2 i = (r : EReal)) :
    val_main_v7 (F := Ideal) x0 x1 x2 x3 = layer x0 x1 x2 x3 := by
  funext i
  rw [val_main_v7_apply, val_main_v4_apply, val_main_v6_apply, val_main_v5_apply, bidx_eq]
  have e : ∀ k : Fin 4096, x0 (lidx_main_v4 i k) * val_main_v3 (F := Ideal) x1 x2 (ridx_main_v4 i k)
      = x0 (ix3 (i 0) (i 1) k) * (wt (x1 (ix2 (i 2) k)) * x2 (ix1 (i 2))) := fun k => by
    rw [val_main_v3_apply, val_main_v0_apply, val_main_v2_apply, val_main_v1_apply, sidx_eq, lidx_eq, ridx_eq]
    rfl
  rw [Finset.sum_congr rfl fun k _ => e k]
  show (∑ k : Fin 4096, x0 (ix3 (i 0) (i 1) k) * (wt (x1 (ix2 (i 2) k)) * x2 (ix1 (i 2)))) + x3 (ix1 (i 2)) = _
  rw [Cert.Lib.scale_out (fun k : Fin 4096 => x0 (ix3 (i 0) (i 1) k)) (fun k => wt (x1 (ix2 (i 2) k))) (x2 (ix1 (i 2)))
    (fun k => hx _) (fun k => ⟨_, rfl⟩) (hs _)]
  rfl

end Cert.ReferenceIdeal.RefValue

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.Finite.lean ====
/-
  What the precondition gives: the activations and the scale are arrays of real numbers.

  The precondition is the conjunction of three tests, one per float argument, each saying that every entry's absolute
  value is below +∞. The first and second conjuncts make the activations and the scale arrays of reals; the third (the
  bias) is not needed: the bias is only added at the end, to equal values on both sides.
-/
import proofs.«136499_j17377437680105_2_alg».proof.Proof.Gen.Pre_finite_inputs
import Idealize.ShloMosaic.Lib.ReduceAll
import Idealize.ShloMosaic.Lib.ValueIdx
import proofs.«136499_j17377437680105_2_alg».proof.Proof.LibRealEntries

noncomputable section

namespace Cert.Pre_finite_inputs.Reals

open Cert.Pre_finite_inputs Idealize.ShloMosaic

variable [Facts]

instance : Subsingleton S_.Idx := ⟨fun a b => funext fun d => d.elim0⟩

/-- If the precondition answers one, the activations and the scale are arrays of reals. -/
theorem reals_of_pre (x : FVec Ideal S8x2048x4096 .f32) (q : IVec S11008x4096 32) (s b : FVec Ideal S11008 .f32)
    (h : fn (F := Ideal) x q s b = fun _ => 1#1) : Cert.Lib.AllReal x ∧ Cert.Lib.AllReal s := by
  have h0 := congrFun h ValueIdx.ix0
  dsimp only [fn] at h0
  obtain ⟨h1, -⟩ := IntOp.andi_eq_one.1 h0
  obtain ⟨hx, hs⟩ := IntOp.andi_eq_one.1 h1
  exact ⟨Cert.Lib.allReal_of_all_abs_lt x _ (fun _ => rfl) Facts.reducesTo_S8x2048x4096_S_d0_1_2 _ Facts.h_S_ ValueIdx.ix0 hx,
    Cert.Lib.allReal_of_all_abs_lt s _ (fun _ => rfl) Facts.reducesTo_S11008_S_d0 _ Facts.h_S_ ValueIdx.ix0 hs⟩

end Cert.Pre_finite_inputs.Reals

end
-- ==== Proof.lean ====
/-
  A per-channel quantised linear layer, computed by a tiled kernel, against its plain reference.

  Both programs take activations x [8, 2048, 4096], integer weights q [11008, 4096], and per-channel scale and bias
  vectors [11008], and on the extended reals both compute, at (b, s, o),
      (∑ₖ x(b, s, k) · q(o, k)) · scale(o) + bias(o).

  The kernel flattens the activations to [16384, 4096], pads the weights, the scale and the bias with 256 zero
  channels, and walks a 16 × 11 × 4 grid of 1024 × 1024 tiles: for each output tile it accumulates, from zero, the four
  products of an activation tile with a weight tile along the contraction axis, and at the fourth step multiplies the
  accumulated tile by the scale row and adds the bias row. The padded channels are cut away afterwards. Regrouping a sum
  of 4096 terms into four consecutive tiles of 1024 uses only commutativity and associativity of addition.

  The reference scales every weight by its channel's scale before the contraction. Taking the common factor scale(o) out
  of the sum is valid for real activations and a real scale, and not at the infinities; that the activations and the
  scale are real is what the precondition says. The bias's finiteness is not used.

  The integer-to-float conversion denotes the same integer whatever the float format, so the kernel's narrower weight
  format changes nothing; the narrowing of the activations is the identity on the extended reals.
-/
import proofs.«136499_j17377437680105_2_alg».proof.Defs
import proofs.«136499_j17377437680105_2_alg».proof.Proof.Gen.Kernel
import proofs.«136499_j17377437680105_2_alg».proof.Proof.Gen.Kernel.Skeleton
import proofs.«136499_j17377437680105_2_alg».proof.Proof.Gen.Kernel.Launch
import proofs.«136499_j17377437680105_2_alg».proof.Proof.Gen.Kernel.Points
import proofs.«136499_j17377437680105_2_alg».proof.Proof.Gen.Kernel.Frame
import proofs.«136499_j17377437680105_2_alg».proof.Proof.Gen.KernelIdeal
import proofs.«136499_j17377437680105_2_alg».proof.Proof.Gen.KernelIdeal.Skeleton
import proofs.«136499_j17377437680105_2_alg».proof.Proof.Gen.KernelIdeal.Launch
import proofs.«136499_j17377437680105_2_alg».proof.Proof.Gen.KernelIdeal.Points
import proofs.«136499_j17377437680105_2_alg».proof.Proof.Gen.KernelIdeal.Frame
import proofs.«136499_j17377437680105_2_alg».proof.Proof.Gen.ReferenceIdeal
import proofs.«136499_j17377437680105_2_alg».proof.Proof.Gen.Pre_finite_inputs
import proofs.«136499_j17377437680105_2_alg».proof.Proof.Gen.ReferenceIdeal.Run
import proofs.«136499_j17377437680105_2_alg».proof.Proof.Gen.ReferenceIdeal.Read
import proofs.«136499_j17377437680105_2_alg».proof.Proof.Result
import proofs.«136499_j17377437680105_2_alg».proof.Proof.RefValue
import proofs.«136499_j17377437680105_2_alg».proof.Proof.Finite
import Idealize.ShloMosaic.Adequacy
import Idealize.ShloMosaic.Init

noncomputable section

namespace Cert.Proof

open Idealize.ShloMosaic Idealize.SL.Sem

/-- The kernel program terminates, nothing faults, and its arguments end unchanged. -/
theorem frame_kernel : Cert.frame_Kernel := fun m ρ _ => Cert.Kernel.Gen.frame m ρ

/-- The same for its reading on the extended reals. -/
theorem frame_kernelIdeal : Cert.frame_KernelIdeal := fun m ρ _ => Cert.KernelIdeal.Gen.frame m ρ

/-- The reference terminates with its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on the arguments, under the precondition, both programs end with the layer of the arguments
    in their result: the kernel by regrouping the contraction into its four tiles, the reference by taking the
    channel's scale out of the contraction of real numbers. -/
theorem algebraic : Cert.algebraic_KernelIdeal_ReferenceIdeal := by
  intro m ρ m' ρ' hpre hagree
  refine ⟨fun c => Cert.QLinear.layer (Cert.KernelIdeal.Entry.argX m c) (Cert.KernelIdeal.Entry.argQ m c)
    (Cert.KernelIdeal.Entry.argS m c) (Cert.KernelIdeal.Entry.argB m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs⟩ := Cert.Pre_finite_inputs.Reals.reals_of_pre _ _ _ _ (hpre c)
  rw [Cert.ReferenceIdeal.Read.val_main_v7_eq, (hagree c).1, (hagree c).2.1, (hagree c).2.2.1, (hagree c).2.2.2]
  exact Cert.ReferenceIdeal.RefValue.reference_is_layer _ _ _ _ hx hs

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
